-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S1600000 32) (main_arg8 : IVec S1600000 32) (main_arg9 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S10000x128 : Shape := ⟨2, ![10000, 128]⟩
abbrev S1x128 : Shape := ⟨2, ![1, 128]⟩
abbrev S64x128 : Shape := ⟨2, ![64, 128]⟩
abbrev S64x1 : Shape := ⟨2, ![64, 1]⟩

abbrev nBuf : Space → Nat
  | .hbm => 96
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S100000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S_, .f32⟩
  | .hbm, ⟨75, _⟩ => ⟨S100000x128, .f32⟩
  | .hbm, ⟨76, _⟩ => ⟨S1700000x1, .i32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S64x128, .f32⟩
  | .hbm, ⟨83, _⟩ => ⟨S100000x1, .i32⟩
  | .hbm, ⟨84, _⟩ => ⟨S64x128, .f32⟩
  | .hbm, ⟨85, _⟩ => ⟨S_, .f32⟩
  | .hbm, ⟨86, _⟩ => ⟨S100000x1, .f32⟩
  | .hbm, ⟨87, _⟩ => ⟨S_, .f32⟩
  | .hbm, ⟨88, _⟩ => ⟨S64x1, .f32⟩
  | .hbm, ⟨89, _⟩ => ⟨S100000x1, .i32⟩
  | .hbm, ⟨90, _⟩ => ⟨S64x1, .f32⟩
  | .hbm, ⟨91, _⟩ => ⟨S_, .f32⟩
  | .hbm, ⟨92, _⟩ => ⟨S64x1, .f32⟩
  | .hbm, ⟨93, _⟩ => ⟨S64x1, .f32⟩
  | .hbm, ⟨94, _⟩ => ⟨S64x128, .f32⟩
  | .hbm, ⟨95, _⟩ => ⟨S64x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S128, .f32⟩
  | .local _ .vmem, ⟨16, _⟩ => ⟨S10000x128, .f32⟩
  | .local _ .vmem, ⟨17, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  bcast_S_S64x128 : S_.BroadcastsInDim S64x128 (![] : Fin 0 → Fin S64x128.rank)
  bcast_S_S100000x1 : S_.BroadcastsInDim S100000x1 (![] : Fin 0 → Fin S100000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  scatter_S64x128_S100000x1_S100000x128_1_0_0_1_wf : ScatterDims.WF S64x128 S100000x1 S100000x128 [1] [0] [0] 1
  scatter_S64x1_S100000x1_S100000x1_1_0_0_1_wf : ScatterDims.WF S64x1 S100000x1 S100000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf

abbrev win0_0 : Pipeline.Window sig grid0 :=
  Pipeline.Window.ofSpec (Memref.whole main_v27) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩
abbrev S64x128 : Shape := ⟨2, ![64, 128]⟩
abbrev S64x1 : Shape := ⟨2, ![64, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S100000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S64x128, .f32⟩
  | .hbm, ⟨101, _⟩ => ⟨S100000x1, .i32⟩
  | .hbm, ⟨102, _⟩ => ⟨S64x128, .f32⟩
  | .hbm, ⟨103, _⟩ => ⟨S_, .f32⟩
  | .hbm, ⟨104, _⟩ => ⟨S100000x1, .f32⟩
  | .hbm, ⟨105, _⟩ => ⟨S_, .f32⟩
  | .hbm, ⟨106, _⟩ => ⟨S64x1, .f32⟩
  | .hbm, ⟨107, _⟩ => ⟨S100000x1, .i32⟩
  | .hbm, ⟨108, _⟩ => ⟨S64x1, .f32⟩
  | .hbm, ⟨109, _⟩ => ⟨S_, .f32⟩
  | .hbm, ⟨110, _⟩ => ⟨S64x1, .f32⟩
  | .hbm, ⟨111, _⟩ => ⟨S64x1, .f32⟩
  | .hbm, ⟨112, _⟩ => ⟨S64x128, .f32⟩
  | .hbm, ⟨113, _⟩ => ⟨S64x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_7 : Ref sig .tc := ⟨.hbm, 77, rfl⟩
abbrev main_v54 : Ref sig .tc := ⟨.hbm, 78, rfl⟩
abbrev main_v55 : Ref sig .tc := ⟨.hbm, 79, rfl⟩
abbrev main_c_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call2_cst : Ref sig .tc := ⟨.hbm, 96, rfl⟩
abbrev main_call2_v0 : Ref sig .tc := ⟨.hbm, 97, rfl⟩
abbrev main_v70 : Ref sig .tc := ⟨.hbm, 98, rfl⟩
abbrev main_cst_10 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_11 : Ref sig .tc := ⟨.hbm, 103, rfl⟩
abbrev main_v74 : Ref sig .tc := ⟨.hbm, 104, rfl⟩
abbrev main_cst_12 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_13 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S100000x1 : S_.BroadcastsInDim S100000x1 (![] : Fin 0 → Fin S100000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64x1_S100000x1_S100000x1_1_0_0_1_wf : ScatterDims.WF S64x1 S100000x1 S100000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf

class Facts : Prop extends Facts₀ where

variable [Facts]
-- ==== Proof.KernelRun.lean ====
/-
  The idealized kernel program's run with its result named.

  The program is seven segments: host operations, then a launch of the layer kernel over ten row blocks, three times over,
  then the host operations that average each graph's node features. Every weakly fair execution terminates without a fault,
  and each buffer the program does not scope ends holding what the segments' fold leaves in it: host operations rewrite
  their result buffers, a launch rewrites its output array with its ten write-backs and leaves every other buffer alone.
  Read at the result buffer this names the program's result; read at an argument it gives the argument back.
-/
import proofs.«145940_j79585743995605_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program terminates, nothing faulting; its result buffer ends at the last
    segment boundary's contents of that buffer, and its ten argument arrays end as launched. -/
theorem run_result : θ_run defs (onTc (τ := τ) (main (F := F))) ⟨m, fun _ => 0, ρ⟩ (fun r => ∀ c : Dev nD,
      r.2.mem ((c.tc : Thread nD τ).loc main_v69) = W7 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v69 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.RunValue

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibDense.lean ====
/-
  Dense layers read at coordinates, at the extended reals.

  A row-major `[M, K]` array times a `[K, N]` matrix into a zero accumulator, plus a length-`N` bias laid out as one row
  and repeated over the `M` rows, is at `(p, q)` the sum over `k` of `l (p, k) · W (k, q)`, plus `b q`. A length-`c`
  vector laid out as `[1, 1, c]` and repeated over two leading axes reads, at `(p, q, k)`, the vector at `k`.
-/
import proofs.«145940_j79585743995605_1_alg».proof.Proof.LibPlainDot
import Idealize.ShloMosaic.Lib.ValueLayout
import Idealize.ShloMosaic.Lib.Pipeline.Value

noncomputable section

namespace Cert.LibDense

open Idealize.ShloMosaic Idealize.ShloMosaic.ValueIdx
open scoped BigOperators

variable {α : Type}

/-- A length-`c` vector cast to `[1, 1, c]` reads, at `(u, v, k)`, the vector at `k`. -/
theorem shapeCast_c_11c_apply {c : ℕ} (x : (⟨1, ![c]⟩ : Shape).Idx → α) (h : (⟨1, ![c]⟩ : Shape).ShapeCasts ⟨3, ![1, 1, c]⟩)
    (u v : Fin 1) (k : Fin c) : shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    omega)

/-- A `[1, 1, c]` array broadcast to `[a, b, c]` reads, at `(p, q, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => show 0 = if (1 : ℕ) = 1 then 0 else p.val; rw [if_pos rfl]
  | ⟨1, _⟩ => show 0 = if (1 : ℕ) = 1 then 0 else q.val; rw [if_pos rfl]
  | ⟨2, _⟩ =>
    show k.val = if c = 1 then 0 else k.val
    split
    · have := k.isLt; omega
    · rfl

variable {M K N : ℕ} (d : DotDims ⟨2, ![M, K]⟩ ⟨2, ![K, N]⟩ ⟨2, ![M, N]⟩)

/-- A dense layer before its activation, at `(p, q)`. -/
theorem dense_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (q : Fin N) :
    addf (FloatOps.matmul d prec l W (constant ⟨2, ![M, N]⟩ .f32 0x00000000#32))
        (broadcastTo ⟨2, ![M, N]⟩ (shapeCast ⟨2, ![1, N]⟩ b hc) hb) (ix2 p q)
      = (∑ k : Fin K, l (ix2 p k) * W (ix2 k q)) + b (ix1 q) := by
  rw [addf_apply, Cert.LibPlainDot.matmul_plain_apply d hlc hrc hlb hrb hln hrn, broadcastTo_1b_ab_apply, shapeCast_a_1a_apply]

end Cert.LibDense

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«145940_j79585743995605_1_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.Layer.lean ====
/-
  One graph-convolution layer's dense step, in its two spellings, read at a row `p` and a column `q`.

  After the neighbours' features have been summed and scaled, each layer multiplies the node-by-feature array `a` by a
  `128 × 128` weight matrix `W`, adds the bias `b` to every row and rectifies:

      out (p, q) = max (∑ k, a (p, k) · W (k, q) + b q) 0.

  The reference writes this on the whole `100000 × 128` array (a `dot_general`, the bias laid out as a row and repeated,
  the maximum with a repeated zero). The kernel writes it on a block of `10000` rows: both operands are first rounded to
  a narrower float format — at the extended reals a change of format is the identity — then multiplied into a zero
  accumulator, the bias row repeated over the block's rows, the maximum with a zero splat. Both are the formula above.
-/
import proofs.«145940_j79585743995605_1_alg».proof.Proof.Gen.KernelIdeal.Skeleton
import proofs.«145940_j79585743995605_1_alg».proof.Proof.Gen.ReferenceIdeal
import proofs.«145940_j79585743995605_1_alg».proof.Proof.LibDense
import proofs.«145940_j79585743995605_1_alg».proof.Proof.LibHostDense

noncomputable section

namespace Cert.GcnLayer

open Idealize.ShloMosaic Idealize.ShloMosaic.ValueIdx
open scoped BigOperators

/-- The layer's dense step at row `p` and column `q`, from the rows of `a`, the columns of `W` and the bias. -/
def denseAt {M : ℕ} (a : (⟨2, ![M, 128]⟩ : Shape).Idx → EReal) (W : (⟨2, ![128, 128]⟩ : Shape).Idx → EReal)
    (b : (⟨1, ![128]⟩ : Shape).Idx → EReal) (p : Fin M) (q : Fin 128) : EReal :=
  max ((∑ k : Fin 128, a (ix2 p k) * W (ix2 k q)) + b (ix1 q)) (Ideal.ofBits .f32 0x00000000#32)

section Reference

open Cert.ReferenceIdeal Cert.ReferenceIdeal.Gen

/-- The reference's dense step on the whole array: product, bias row repeated over the rows, maximum with zero. -/
def refLayer (a : FVec Ideal S100000x128 .f32) (W : FVec Ideal S128x128 .f32) (b : FVec Ideal S128 .f32) :
    FVec Ideal S100000x128 .f32 :=
  maximumf (addf (Host.dotGeneral dot_S100000x128_S128x128_S100000x128_1_0_0_1_n_n none a W)
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The reference's dense step at `(p, q)`. -/
theorem refLayer_apply (a : FVec Ideal S100000x128 .f32) (W : FVec Ideal S128x128 .f32) (b : FVec Ideal S128 .f32)
    (p : Fin 100000) (q : Fin 128) : refLayer a W b (ix2 p q) = denseAt a W b p q :=
  Cert.LibHostDense.hostDenseMax_apply dot_S100000x128_S128x128_S100000x128_1_0_0_1_n_n rfl rfl rfl rfl rfl rfl none a W b
    bcast_S128_S1x128_1 bcast_S1x128_S100000x128_0_1 bcast_S_S100000x128 0x00000000#32 p q

end Reference

section Kernel

open Cert.KernelIdeal Cert.KernelIdeal.Gen

/-- The kernel body's stored value at `(p, q)` of its block, from the three blocks it loads. -/
theorem pay0_apply (x0 : Vec Ideal S10000x128 .f32) (x1 : Vec Ideal S128x128 .f32) (x2 : Vec Ideal S128 .f32)
    (p : Fin 10000) (q : Fin 128) : k0_pay1 x0 x1 x2 (ix2 p q) = denseAt x0 x1 x2 p q := by
  unfold k0_pay1 denseAt
  rw [shapeCast_self]
  refine (maximumf_apply _ _ _).trans ?_
  refine congrArg₂ max ?_ rfl
  exact Cert.LibDense.dense_apply dot_S10000x128_S128x128_S10000x128_1_0_0_1_n_n rfl rfl rfl rfl rfl rfl none
    (truncf .bf16 x0 Facts₀.bitsLt_bf16_f32) (truncf .bf16 x1 Facts₀.bitsLt_bf16_f32) x2 Facts₀.shapeCasts_S128_S1x128 Facts₀.broadcasts_S1x128_S10000x128 p q

/-- The three regions run one body: the second and third payloads are the first. -/
theorem pay1_eq (x0 : Vec Ideal S10000x128 .f32) (x1 : Vec Ideal S128x128 .f32) (x2 : Vec Ideal S128 .f32) :
    k1_pay1 x0 x1 x2 = k0_pay1 x0 x1 x2 := rfl
theorem pay2_eq (x0 : Vec Ideal S10000x128 .f32) (x1 : Vec Ideal S128x128 .f32) (x2 : Vec Ideal S128 .f32) :
    k2_pay1 x0 x1 x2 = k0_pay1 x0 x1 x2 := rfl

end Kernel

/-! ## A block of the dense step is the dense step of the blocks

The kernel's block at grid point `T` holds rows `T · 10000 … T · 10000 + 9999` of the node array and all of the weight
matrix and the bias. Entry `(p, q)` of what the body stores is therefore entry `(T · 10000 + p, q)` of the reference's
dense step on the whole arrays: the two sums run over the same products. -/

/-- The body's stored value at an index `j` of its block is the reference's dense step at the index `i` of the whole
    array that sits `T` blocks of rows further down, when the loaded blocks are those rows of `A`, all of `W`, all of `b`. -/
theorem block_point (A : FVec Ideal Cert.ReferenceIdeal.S100000x128 .f32) (W : FVec Ideal Cert.ReferenceIdeal.S128x128 .f32)
    (b : FVec Ideal Cert.ReferenceIdeal.S128 .f32)
    (x0 : Vec Ideal Cert.KernelIdeal.S10000x128 .f32) (x1 : Vec Ideal Cert.KernelIdeal.S128x128 .f32) (x2 : Vec Ideal Cert.KernelIdeal.S128 .f32)
    (T : ℕ) (j : Cert.KernelIdeal.S10000x128.Idx) (i : Cert.ReferenceIdeal.S100000x128.Idx)
    (hi0 : (i 0).val = T * 10000 + (j 0).val) (hi1 : (i 1).val = (j 1).val)
    (h0 : ∀ (p : Fin 10000) (k : Fin 128) (p' : Fin 100000), p'.val = T * 10000 + p.val → x0 (ix2 p k) = A (ix2 p' k))
    (h1 : ∀ k q : Fin 128, x1 (ix2 k q) = W (ix2 k q)) (h2 : ∀ q : Fin 128, x2 (ix1 q) = b (ix1 q)) :
    Cert.KernelIdeal.Gen.k0_pay1 x0 x1 x2 j = refLayer A W b i := by
  obtain ⟨p, q, rfl⟩ : ∃ (p : Fin 10000) (q : Fin 128), j = ix2 p q := ⟨j 0, j 1, eq_ix2 j⟩
  obtain ⟨p', q', rfl⟩ : ∃ (p' : Fin 100000) (q' : Fin 128), i = ix2 p' q' := ⟨i 0, i 1, eq_ix2 i⟩
  have hq : q' = q := Fin.ext hi1
  subst hq
  rw [pay0_apply, refLayer_apply]
  unfold denseAt
  refine congrArg₂ max (congrArg₂ (· + ·) (Finset.sum_congr rfl fun k _ => ?_) (h2 q')) rfl
  rw [h0 p k p' hi0, h1]

end Cert.GcnLayer

end
-- ==== Proof.Launch0.lean ====
/-
  What launch 0 of the layer kernel leaves in its output array.

  The launch walks ten grid points. At point `t` it fetches rows `t · 10000 … t · 10000 + 9999` of its node array and the
  whole weight matrix and bias, runs the body, and writes the body's `10000 × 128` result back to the same rows of the
  output array. The ten row blocks tile the `100000` rows, so every entry of the output array is written, and by
  `block_point` each written entry is the reference's dense step of the arrays the launch found: the output array ends
  holding `refLayer` of the node array, the weight matrix and the bias as they were when the launch began.
-/
import proofs.«145940_j79585743995605_1_alg».proof.Proof.Gen.KernelIdeal.Frame
import proofs.«145940_j79585743995605_1_alg».proof.Proof.Layer
import Idealize.ShloMosaic.Lib.Pipeline.Value

set_option maxRecDepth 16384

noncomputable section

namespace Cert.GcnLayer.Launch0

open Cert.KernelIdeal Cert.KernelIdeal.Gen Cert.GcnLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The index maps over the grid: the node block's row index is the output block's, every other block index is zero,
    and the output's row index stays below ten. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 9 :=
  (by decide +kernel : ∀ t : Fin grid0.N, _)

/-- Every one of the ten row blocks is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What point `t` writes back is block `t` of the reference's dense step of the arrays the launch found. -/
theorem flushed_eq (c : Dev nD) (t : Fin cfg0.N) :
    (dat0 (F := Ideal) V c).flushed 3 t
      = ((cfg0.win 3).blk t).view.read (Elt Ideal) (refLayer (V c main_v27) (V c main_arg1) (V c main_arg2)) := by
  show (cfg0.win 3).cut (grid0.coords t) ((dat0 V c).after 3 t) = _
  rw [after0_3]
  unfold out0_3
  rw [View.canon_unit_zero zero2]
  simp only [View.ld_unit_zero (S := S10000x128) zero2, View.ld_unit_zero (S := S128x128) zero2, View.ld_unit_zero (S := S128) zero1]
  obtain ⟨e0, e1, e2, e3, e4, e5, e6⟩ := idx_facts t
  funext j
  show k0_pay1 (iblk0 V c 0 t) (iblk0 V c 1 t) (iblk0 V c 2 t) j
    = refLayer (V c main_v27) (V c main_arg1) (V c main_arg2) (((cfg0.win 3).blk t).view.emb j)
  refine block_point _ _ _ _ _ _ (win0_3.index t (0 : Fin 2)) j _ ?_ ?_ ?_ ?_ ?_
  · show win0_3.index t (0 : Fin 2) * 10000 + 1 * (j 0).val = _
    omega
  · show win0_3.index t (1 : Fin 2) * 128 + 1 * (j 1).val = _
    omega
  · intro p k p' hp
    show V c main_v27 (((cfg0.win 0).blk t).view.emb (ix2 p k)) = V c main_v27 (ix2 p' k)
    refine congrArg _ (funext fun a => Fin.ext ?_)
    match a with
    | ⟨0, _⟩ => show win0_0.index t (0 : Fin 2) * 10000 + 1 * p.val = p'.val; omega
    | ⟨1, _⟩ => show win0_0.index t (1 : Fin 2) * 128 + 1 * k.val = k.val; omega
  · intro k q
    show V c main_arg1 (((cfg0.win 1).blk t).view.emb (ix2 k q)) = V c main_arg1 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · intro q
    show V c main_arg2 (((cfg0.win 2).blk t).view.emb (ix1 q)) = V c main_arg2 (ix1 q)
    refine congrArg _ (funext fun a => Fin.ext ?_)
    match a with
    | ⟨0, _⟩ => show win0_2.index t (0 : Fin 1) * 128 + 1 * q.val = q.val; omega

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v28).slice (win0_3.rect t)).set ↔ _
  rw [View.set_slice_whole, Rect.mem_set_unit]
  exact Iff.rfl

/-- Every index of the output array is in some point's block: row `r` is in block `r / 10000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-- The output array after the launch: the reference's dense step of the node array, the weight matrix and the bias as
    the launch found them. -/
theorem out_eq (c : Dev nD) :
    (dat0 (F := Ideal) V c).arrAt 3 cfg0.N = refLayer (V c main_v27) (V c main_arg1) (V c main_arg2) :=
  (dat0 V c).arrAt_eq_of_cover 3 _ (fun t _ => flushed_eq V c t) cover

end Cert.GcnLayer.Launch0

end
-- ==== Proof.Launch1.lean ====
/-
  What launch 1 of the layer kernel leaves in its output array.

  The launch walks ten grid points. At point `t` it fetches rows `t · 10000 … t · 10000 + 9999` of its node array and the
  whole weight matrix and bias, runs the body, and writes the body's `10000 × 128` result back to the same rows of the
  output array. The ten row blocks tile the `100000` rows, so every entry of the output array is written, and by
  `block_point` each written entry is the reference's dense step of the arrays the launch found: the output array ends
  holding `refLayer` of the node array, the weight matrix and the bias as they were when the launch began.
-/
import proofs.«145940_j79585743995605_1_alg».proof.Proof.Gen.KernelIdeal.Frame
import proofs.«145940_j79585743995605_1_alg».proof.Proof.Layer
import Idealize.ShloMosaic.Lib.Pipeline.Value

set_option maxRecDepth 16384

noncomputable section

namespace Cert.GcnLayer.Launch1

open Cert.KernelIdeal Cert.KernelIdeal.Gen Cert.GcnLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The index maps over the grid: the node block's row index is the output block's, every other block index is zero,
    and the output's row index stays below ten. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 1) = 0
    ∧ win1_3.index t (1 : Fin 2) = 0 ∧ win1_3.index t (0 : Fin 2) ≤ 9 :=
  (by decide +kernel : ∀ t : Fin grid1.N, _)

/-- Every one of the ten row blocks is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- What point `t` writes back is block `t` of the reference's dense step of the arrays the launch found. -/
theorem flushed_eq (c : Dev nD) (t : Fin cfg1.N) :
    (dat1 (F := Ideal) V c).flushed 3 t
      = ((cfg1.win 3).blk t).view.read (Elt Ideal) (refLayer (V c main_v42) (V c main_arg3) (V c main_arg4)) := by
  show (cfg1.win 3).cut (grid1.coords t) ((dat1 V c).after 3 t) = _
  rw [after1_3]
  unfold out1_3
  rw [View.canon_unit_zero zero2]
  simp only [View.ld_unit_zero (S := S10000x128) zero2, View.ld_unit_zero (S := S128x128) zero2, View.ld_unit_zero (S := S128) zero1]
  obtain ⟨e0, e1, e2, e3, e4, e5, e6⟩ := idx_facts t
  funext j
  show k1_pay1 (iblk1 V c 0 t) (iblk1 V c 1 t) (iblk1 V c 2 t) j
    = refLayer (V c main_v42) (V c main_arg3) (V c main_arg4) (((cfg1.win 3).blk t).view.emb j)
  rw [pay1_eq]
  refine block_point _ _ _ _ _ _ (win1_3.index t (0 : Fin 2)) j _ ?_ ?_ ?_ ?_ ?_
  · show win1_3.index t (0 : Fin 2) * 10000 + 1 * (j 0).val = _
    omega
  · show win1_3.index t (1 : Fin 2) * 128 + 1 * (j 1).val = _
    omega
  · intro p k p' hp
    show V c main_v42 (((cfg1.win 0).blk t).view.emb (ix2 p k)) = V c main_v42 (ix2 p' k)
    refine congrArg _ (funext fun a => Fin.ext ?_)
    match a with
    | ⟨0, _⟩ => show win1_0.index t (0 : Fin 2) * 10000 + 1 * p.val = p'.val; omega
    | ⟨1, _⟩ => show win1_0.index t (1 : Fin 2) * 128 + 1 * k.val = k.val; omega
  · intro k q
    show V c main_arg3 (((cfg1.win 1).blk t).view.emb (ix2 k q)) = V c main_arg3 (ix2 k q)
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · intro q
    show V c main_arg4 (((cfg1.win 2).blk t).view.emb (ix1 q)) = V c main_arg4 (ix1 q)
    refine congrArg _ (funext fun a => Fin.ext ?_)
    match a with
    | ⟨0, _⟩ => show win1_2.index t (0 : Fin 1) * 128 + 1 * q.val = q.val; omega

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v43).slice (win1_3.rect t)).set ↔ _
  rw [View.set_slice_whole, Rect.mem_set_unit]
  exact Iff.rfl

/-- Every index of the output array is in some point's block: row `r` is in block `r / 10000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 128 ≤ (i 1).val ∧ (i 1).val < win1_3.index t (1 : Fin 2) * 128 + 128
    omega

/-- The output array after the launch: the reference's dense step of the node array, the weight matrix and the bias as
    the launch found them. -/
theorem out_eq (c : Dev nD) :
    (dat1 (F := Ideal) V c).arrAt 3 cfg1.N = refLayer (V c main_v42) (V c main_arg3) (V c main_arg4) :=
  (dat1 V c).arrAt_eq_of_cover 3 _ (fun t _ => flushed_eq V c t) cover

end Cert.GcnLayer.Launch1

end
-- ==== Proof.Launch2.lean ====
/-
  What launch 2 of the layer kernel leaves in its output array.

  The launch walks ten grid points. At point `t` it fetches rows `t · 10000 … t · 10000 + 9999` of its node array and the
  whole weight matrix and bias, runs the body, and writes the body's `10000 × 128` result back to the same rows of the
  output array. The ten row blocks tile the `100000` rows, so every entry of the output array is written, and by
  `block_point` each written entry is the reference's dense step of the arrays the launch found: the output array ends
  holding `refLayer` of the node array, the weight matrix and the bias as they were when the launch began.
-/
import proofs.«145940_j79585743995605_1_alg».proof.Proof.Gen.KernelIdeal.Frame
import proofs.«145940_j79585743995605_1_alg».proof.Proof.Layer
import Idealize.ShloMosaic.Lib.Pipeline.Value

set_option maxRecDepth 16384

noncomputable section

namespace Cert.GcnLayer.Launch2

open Cert.KernelIdeal Cert.KernelIdeal.Gen Cert.GcnLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The index maps over the grid: the node block's row index is the output block's, every other block index is zero,
    and the output's row index stays below ten. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 1) = 0
    ∧ win2_3.index t (1 : Fin 2) = 0 ∧ win2_3.index t (0 : Fin 2) ≤ 9 :=
  (by decide +kernel : ∀ t : Fin grid2.N, _)

/-- Every one of the ten row blocks is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- What point `t` writes back is block `t` of the reference's dense step of the arrays the launch found. -/
theorem flushed_eq (c : Dev nD) (t : Fin cfg2.N) :
    (dat2 (F := Ideal) V c).flushed 3 t
      = ((cfg2.win 3).blk t).view.read (Elt Ideal) (refLayer (V c main_v57) (V c main_arg5) (V c main_arg6)) := by
  show (cfg2.win 3).cut (grid2.coords t) ((dat2 V c).after 3 t) = _
  rw [after2_3]
  unfold out2_3
  rw [View.canon_unit_zero zero2]
  simp only [View.ld_unit_zero (S := S10000x128) zero2, View.ld_unit_zero (S := S128x128) zero2, View.ld_unit_zero (S := S128) zero1]
  obtain ⟨e0, e1, e2, e3, e4, e5, e6⟩ := idx_facts t
  funext j
  show k2_pay1 (iblk2 V c 0 t) (iblk2 V c 1 t) (iblk2 V c 2 t) j
    = refLayer (V c main_v57) (V c main_arg5) (V c main_arg6) (((cfg2.win 3).blk t).view.emb j)
  rw [pay2_eq]
  refine block_point _ _ _ _ _ _ (win2_3.index t (0 : Fin 2)) j _ ?_ ?_ ?_ ?_ ?_
  · show win2_3.index t (0 : Fin 2) * 10000 + 1 * (j 0).val = _
    omega
  · show win2_3.index t (1 : Fin 2) * 128 + 1 * (j 1).val = _
    omega
  · intro p k p' hp
    show V c main_v57 (((cfg2.win 0).blk t).view.emb (ix2 p k)) = V c main_v57 (ix2 p' k)
    refine congrArg _ (funext fun a => Fin.ext ?_)
    match a with
    | ⟨0, _⟩ => show win2_0.index t (0 : Fin 2) * 10000 + 1 * p.val = p'.val; omega
    | ⟨1, _⟩ => show win2_0.index t (1 : Fin 2) * 128 + 1 * k.val = k.val; omega
  · intro k q
    show V c main_arg5 (((cfg2.win 1).blk t).view.emb (ix2 k q)) = V c main_arg5 (ix2 k q)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  · intro q
    show V c main_arg6 (((cfg2.win 2).blk t).view.emb (ix1 q)) = V c main_arg6 (ix1 q)
    refine congrArg _ (funext fun a => Fin.ext ?_)
    match a with
    | ⟨0, _⟩ => show win2_2.index t (0 : Fin 1) * 128 + 1 * q.val = q.val; omega

/-- An index of the output array is in point `t`'s block iff each coordinate is in the block's range on its axis. -/
theorem mem_blk (t : Fin cfg2.N) (i : S100000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v58).slice (win2_3.rect t)).set ↔ _
  rw [View.set_slice_whole, Rect.mem_set_unit]
  exact Iff.rfl

/-- Every index of the output array is in some point's block: row `r` is in block `r / 10000`. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 128 ≤ (i 1).val ∧ (i 1).val < win2_3.index t (1 : Fin 2) * 128 + 128
    omega

/-- The output array after the launch: the reference's dense step of the node array, the weight matrix and the bias as
    the launch found them. -/
theorem out_eq (c : Dev nD) :
    (dat2 (F := Ideal) V c).arrAt 3 cfg2.N = refLayer (V c main_v57) (V c main_arg5) (V c main_arg6) :=
  (dat2 V c).arrAt_eq_of_cover 3 _ (fun t _ => flushed_eq V c t) cover

end Cert.GcnLayer.Launch2

end
-- ==== Proof.Boundaries.lean ====
/-
  What the buffers hold at each segment boundary of the idealized kernel program, as functions of its arguments.

  The program's fold through its seven segments is read buffer by buffer. A stretch of host operations leaves in a buffer
  its operations' composed term of what the stretch found (read off the fold one operation at a time); a launch leaves in
  its output array the dense step of the arrays it found (`Launch0` … `Launch2`) and every other buffer as it was. The
  host operations are, line for line, the reference's; so each value met on the way is one of the reference's own stages
  applied to the arguments:

    boundary 1 (before launch 0)   the scaled neighbour sums of `x`                       = stage %27
    boundary 2 (after launch 0)    their dense step with `W0, b0`                        = stage %32
    boundary 3 (before launch 1)   the scaled neighbour sums of that                     = stage %46
    boundary 4 (after launch 1)    their dense step with `W1, b1`                        = stage %51
    boundary 5 (before launch 2)   the scaled neighbour sums of that                     = stage %65
    boundary 6 (after launch 2)    their dense step with `W2, b2`                        = stage %70
    boundary 7 (the return)        each graph's mean of those rows                       = stage %81, the reference's result.

  Beside them travel the buffers later segments read again: the two edge lists with their self-loops (%1, %2), the two
  degree scalings (%11, %13), and the arguments a later launch or the last stretch reads. No entry of any array is ever
  evaluated: every step is a rewrite by an equation between whole arrays, or an unfolding of a stage's definition.
-/
import proofs.«145940_j79585743995605_1_alg».proof.Proof.Gen.KernelIdeal.Frame
import proofs.«145940_j79585743995605_1_alg».proof.Proof.Gen.ReferenceIdeal.Read
import proofs.«145940_j79585743995605_1_alg».proof.Proof.Launch0
import proofs.«145940_j79585743995605_1_alg».proof.Proof.Launch1
import proofs.«145940_j79585743995605_1_alg».proof.Proof.Launch2
import Idealize.ShloMosaic.Lib.StableHlo.Run

set_option maxRecDepth 16384

noncomputable section

namespace Cert.KernelIdeal.Boundaries

open Cert.KernelIdeal Cert.KernelIdeal.Gen Cert.ReferenceIdeal.Read Cert.GcnLayer
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments as launched -/

abbrev arg0 := m ((c : Thread nD τ).loc main_arg0)
abbrev arg1 := m ((c : Thread nD τ).loc main_arg1)
abbrev arg2 := m ((c : Thread nD τ).loc main_arg2)
abbrev arg3 := m ((c : Thread nD τ).loc main_arg3)
abbrev arg4 := m ((c : Thread nD τ).loc main_arg4)
abbrev arg5 := m ((c : Thread nD τ).loc main_arg5)
abbrev arg6 := m ((c : Thread nD τ).loc main_arg6)
abbrev arg7 := m ((c : Thread nD τ).loc main_arg7)
abbrev arg8 := m ((c : Thread nD τ).loc main_arg8)
abbrev arg9 := m ((c : Thread nD τ).loc main_arg9)

/-! ## Boundary 1: after the first stretch of host operations -/

theorem at1_v27 : W1 m ρ c (Proc.devRef .tc main_v27) = val_main_v27 (arg0 m c) (arg7 m c) (arg8 m c) := by
  show StableHlo.after hostOps0 (W0 m ρ c) (Proc.devRef .tc main_v27) = _
  after_results_simp
  rfl
theorem at1_v1 : W1 m ρ c (Proc.devRef .tc main_v1) = val_main_v1 (arg7 m c) := by
  show StableHlo.after hostOps0 (W0 m ρ c) (Proc.devRef .tc main_v1) = _
  after_results_simp
  rfl
theorem at1_v2 : W1 m ρ c (Proc.devRef .tc main_v2) = val_main_v2 (arg8 m c) := by
  show StableHlo.after hostOps0 (W0 m ρ c) (Proc.devRef .tc main_v2) = _
  after_results_simp
  rfl
theorem at1_v11 : W1 m ρ c (Proc.devRef .tc main_v11) = val_main_v11 (arg7 m c) := by
  show StableHlo.after hostOps0 (W0 m ρ c) (Proc.devRef .tc main_v11) = _
  after_results_simp
  rfl
theorem at1_v13 : W1 m ρ c (Proc.devRef .tc main_v13) = val_main_v13 (arg8 m c) := by
  show StableHlo.after hostOps0 (W0 m ρ c) (Proc.devRef .tc main_v13) = _
  after_results_simp
  rfl
theorem at1_arg1 : W1 m ρ c (Proc.devRef .tc main_arg1) = (arg1 m c) := by
  show StableHlo.after hostOps0 (W0 m ρ c) (Proc.devRef .tc main_arg1) = _
  after_results_simp
theorem at1_arg2 : W1 m ρ c (Proc.devRef .tc main_arg2) = (arg2 m c) := by
  show StableHlo.after hostOps0 (W0 m ρ c) (Proc.devRef .tc main_arg2) = _
  after_results_simp
theorem at1_arg3 : W1 m ρ c (Proc.devRef .tc main_arg3) = (arg3 m c) := by
  show StableHlo.after hostOps0 (W0 m ρ c) (Proc.devRef .tc main_arg3) = _
  after_results_simp
theorem at1_arg4 : W1 m ρ c (Proc.devRef .tc main_arg4) = (arg4 m c) := by
  show StableHlo.after hostOps0 (W0 m ρ c) (Proc.devRef .tc main_arg4) = _
  after_results_simp
theorem at1_arg5 : W1 m ρ c (Proc.devRef .tc main_arg5) = (arg5 m c) := by
  show StableHlo.after hostOps0 (W0 m ρ c) (Proc.devRef .tc main_arg5) = _
  after_results_simp
theorem at1_arg6 : W1 m ρ c (Proc.devRef .tc main_arg6) = (arg6 m c) := by
  show StableHlo.after hostOps0 (W0 m ρ c) (Proc.devRef .tc main_arg6) = _
  after_results_simp
theorem at1_arg9 : W1 m ρ c (Proc.devRef .tc main_arg9) = (arg9 m c) := by
  show StableHlo.after hostOps0 (W0 m ρ c) (Proc.devRef .tc main_arg9) = _
  after_results_simp

/-! ## Boundary 2: after launch 0 -/

theorem at2_v28 : W2 m ρ c (Proc.devRef .tc main_v28) = val_main_v32 (arg0 m c) (arg1 m c) (arg2 m c) (arg7 m c) (arg8 m c) := by
  refine (W2_arr m ρ c 3).trans ((Launch0.out_eq (V1 m ρ) c).trans ?_)
  show refLayer (W1 m ρ c (Proc.devRef .tc main_v27)) (W1 m ρ c (Proc.devRef .tc main_arg1)) (W1 m ρ c (Proc.devRef .tc main_arg2)) = _
  rw [at1_v27, at1_arg1, at1_arg2]
  rfl
theorem at2_v1 : W2 m ρ c (Proc.devRef .tc main_v1) = val_main_v1 (arg7 m c) :=
  (W2_of_ne m ρ c main_v1 (by decide)).trans (at1_v1 m ρ c)
theorem at2_v2 : W2 m ρ c (Proc.devRef .tc main_v2) = val_main_v2 (arg8 m c) :=
  (W2_of_ne m ρ c main_v2 (by decide)).trans (at1_v2 m ρ c)
theorem at2_v11 : W2 m ρ c (Proc.devRef .tc main_v11) = val_main_v11 (arg7 m c) :=
  (W2_of_ne m ρ c main_v11 (by decide)).trans (at1_v11 m ρ c)
theorem at2_v13 : W2 m ρ c (Proc.devRef .tc main_v13) = val_main_v13 (arg8 m c) :=
  (W2_of_ne m ρ c main_v13 (by decide)).trans (at1_v13 m ρ c)
theorem at2_arg3 : W2 m ρ c (Proc.devRef .tc main_arg3) = (arg3 m c) :=
  (W2_of_ne m ρ c main_arg3 (by decide)).trans (at1_arg3 m ρ c)
theorem at2_arg4 : W2 m ρ c (Proc.devRef .tc main_arg4) = (arg4 m c) :=
  (W2_of_ne m ρ c main_arg4 (by decide)).trans (at1_arg4 m ρ c)
theorem at2_arg5 : W2 m ρ c (Proc.devRef .tc main_arg5) = (arg5 m c) :=
  (W2_of_ne m ρ c main_arg5 (by decide)).trans (at1_arg5 m ρ c)
theorem at2_arg6 : W2 m ρ c (Proc.devRef .tc main_arg6) = (arg6 m c) :=
  (W2_of_ne m ρ c main_arg6 (by decide)).trans (at1_arg6 m ρ c)
theorem at2_arg9 : W2 m ρ c (Proc.devRef .tc main_arg9) = (arg9 m c) :=
  (W2_of_ne m ρ c main_arg9 (by decide)).trans (at1_arg9 m ρ c)

/-! ## Boundary 3: after the second stretch -/

theorem at3_v42 : W3 m ρ c (Proc.devRef .tc main_v42) = val_main_v46 (arg0 m c) (arg1 m c) (arg2 m c) (arg7 m c) (arg8 m c) := by
  show StableHlo.after hostOps1 (W2 m ρ c) (Proc.devRef .tc main_v42) = _
  after_results_simp
  rw [at2_v28, at2_v11, at2_v1, at2_v2, at2_v13]
  rfl
theorem at3_v1 : W3 m ρ c (Proc.devRef .tc main_v1) = val_main_v1 (arg7 m c) := by
  show StableHlo.after hostOps1 (W2 m ρ c) (Proc.devRef .tc main_v1) = _
  after_results_simp
  exact at2_v1 m ρ c
theorem at3_v2 : W3 m ρ c (Proc.devRef .tc main_v2) = val_main_v2 (arg8 m c) := by
  show StableHlo.after hostOps1 (W2 m ρ c) (Proc.devRef .tc main_v2) = _
  after_results_simp
  exact at2_v2 m ρ c
theorem at3_v11 : W3 m ρ c (Proc.devRef .tc main_v11) = val_main_v11 (arg7 m c) := by
  show StableHlo.after hostOps1 (W2 m ρ c) (Proc.devRef .tc main_v11) = _
  after_results_simp
  exact at2_v11 m ρ c
theorem at3_v13 : W3 m ρ c (Proc.devRef .tc main_v13) = val_main_v13 (arg8 m c) := by
  show StableHlo.after hostOps1 (W2 m ρ c) (Proc.devRef .tc main_v13) = _
  after_results_simp
  exact at2_v13 m ρ c
theorem at3_arg3 : W3 m ρ c (Proc.devRef .tc main_arg3) = (arg3 m c) := by
  show StableHlo.after hostOps1 (W2 m ρ c) (Proc.devRef .tc main_arg3) = _
  after_results_simp
  exact at2_arg3 m ρ c
theorem at3_arg4 : W3 m ρ c (Proc.devRef .tc main_arg4) = (arg4 m c) := by
  show StableHlo.after hostOps1 (W2 m ρ c) (Proc.devRef .tc main_arg4) = _
  after_results_simp
  exact at2_arg4 m ρ c
theorem at3_arg5 : W3 m ρ c (Proc.devRef .tc main_arg5) = (arg5 m c) := by
  show StableHlo.after hostOps1 (W2 m ρ c) (Proc.devRef .tc main_arg5) = _
  after_results_simp
  exact at2_arg5 m ρ c
theorem at3_arg6 : W3 m ρ c (Proc.devRef .tc main_arg6) = (arg6 m c) := by
  show StableHlo.after hostOps1 (W2 m ρ c) (Proc.devRef .tc main_arg6) = _
  after_results_simp
  exact at2_arg6 m ρ c
theorem at3_arg9 : W3 m ρ c (Proc.devRef .tc main_arg9) = (arg9 m c) := by
  show StableHlo.after hostOps1 (W2 m ρ c) (Proc.devRef .tc main_arg9) = _
  after_results_simp
  exact at2_arg9 m ρ c

/-! ## Boundary 4: after launch 1 -/

theorem at4_v43 : W4 m ρ c (Proc.devRef .tc main_v43)
    = val_main_v51 (arg0 m c) (arg1 m c) (arg2 m c) (arg3 m c) (arg4 m c) (arg7 m c) (arg8 m c) := by
  refine (W4_arr m ρ c 3).trans ((Launch1.out_eq (V3 m ρ) c).trans ?_)
  show refLayer (W3 m ρ c (Proc.devRef .tc main_v42)) (W3 m ρ c (Proc.devRef .tc main_arg3)) (W3 m ρ c (Proc.devRef .tc main_arg4)) = _
  rw [at3_v42, at3_arg3, at3_arg4]
  rfl
theorem at4_v1 : W4 m ρ c (Proc.devRef .tc main_v1) = val_main_v1 (arg7 m c) :=
  (W4_of_ne m ρ c main_v1 (by decide)).trans (at3_v1 m ρ c)
theorem at4_v2 : W4 m ρ c (Proc.devRef .tc main_v2) = val_main_v2 (arg8 m c) :=
  (W4_of_ne m ρ c main_v2 (by decide)).trans (at3_v2 m ρ c)
theorem at4_v11 : W4 m ρ c (Proc.devRef .tc main_v11) = val_main_v11 (arg7 m c) :=
  (W4_of_ne m ρ c main_v11 (by decide)).trans (at3_v11 m ρ c)
theorem at4_v13 : W4 m ρ c (Proc.devRef .tc main_v13) = val_main_v13 (arg8 m c) :=
  (W4_of_ne m ρ c main_v13 (by decide)).trans (at3_v13 m ρ c)
theorem at4_arg5 : W4 m ρ c (Proc.devRef .tc main_arg5) = (arg5 m c) :=
  (W4_of_ne m ρ c main_arg5 (by decide)).trans (at3_arg5 m ρ c)
theorem at4_arg6 : W4 m ρ c (Proc.devRef .tc main_arg6) = (arg6 m c) :=
  (W4_of_ne m ρ c main_arg6 (by decide)).trans (at3_arg6 m ρ c)
theorem at4_arg9 : W4 m ρ c (Proc.devRef .tc main_arg9) = (arg9 m c) :=
  (W4_of_ne m ρ c main_arg9 (by decide)).trans (at3_arg9 m ρ c)

/-! ## Boundary 5: after the third stretch -/

theorem at5_v57 : W5 m ρ c (Proc.devRef .tc main_v57)
    = val_main_v65 (arg0 m c) (arg1 m c) (arg2 m c) (arg3 m c) (arg4 m c) (arg7 m c) (arg8 m c) := by
  show StableHlo.after hostOps2 (W4 m ρ c) (Proc.devRef .tc main_v57) = _
  after_results_simp
  rw [at4_v43, at4_v11, at4_v1, at4_v2, at4_v13]
  rfl
theorem at5_arg5 : W5 m ρ c (Proc.devRef .tc main_arg5) = (arg5 m c) := by
  show StableHlo.after hostOps2 (W4 m ρ c) (Proc.devRef .tc main_arg5) = _
  after_results_simp
  exact at4_arg5 m ρ c
theorem at5_arg6 : W5 m ρ c (Proc.devRef .tc main_arg6) = (arg6 m c) := by
  show StableHlo.after hostOps2 (W4 m ρ c) (Proc.devRef .tc main_arg6) = _
  after_results_simp
  exact at4_arg6 m ρ c
theorem at5_arg9 : W5 m ρ c (Proc.devRef .tc main_arg9) = (arg9 m c) := by
  show StableHlo.after hostOps2 (W4 m ρ c) (Proc.devRef .tc main_arg9) = _
  after_results_simp
  exact at4_arg9 m ρ c

/-! ## Boundary 6: after launch 2 -/

theorem at6_v58 : W6 m ρ c (Proc.devRef .tc main_v58)
    = val_main_v70 (arg0 m c) (arg1 m c) (arg2 m c) (arg3 m c) (arg4 m c) (arg5 m c) (arg6 m c) (arg7 m c) (arg8 m c) := by
  refine (W6_arr m ρ c 3).trans ((Launch2.out_eq (V5 m ρ) c).trans ?_)
  show refLayer (W5 m ρ c (Proc.devRef .tc main_v57)) (W5 m ρ c (Proc.devRef .tc main_arg5)) (W5 m ρ c (Proc.devRef .tc main_arg6)) = _
  rw [at5_v57, at5_arg5, at5_arg6]
  rfl
theorem at6_arg9 : W6 m ρ c (Proc.devRef .tc main_arg9) = (arg9 m c) :=
  (W6_of_ne m ρ c main_arg9 (by decide)).trans (at5_arg9 m ρ c)

/-! ## Boundary 7: the return -/

/-- The program's result buffer at the return is the reference's last stage of the arguments. -/
theorem at7_v69 : W7 m ρ c (Proc.devRef .tc main_v69)
    = val_main_v81 (arg0 m c) (arg1 m c) (arg2 m c) (arg3 m c) (arg4 m c) (arg5 m c) (arg6 m c) (arg7 m c) (arg8 m c) (arg9 m c) := by
  show StableHlo.after hostOps3 (W6 m ρ c) (Proc.devRef .tc main_v69) = _
  after_results_simp
  rw [at6_v58, at6_arg9]
  rfl

end Cert.KernelIdeal.Boundaries

end
-- ==== Proof.lean ====
/-
  A three-layer graph convolution with mean pooling, computed two ways, gives one result at the extended reals.

  Both programs take node features `x` (100000 × 128), three weight matrices and biases, an edge list (`src`, `dst`) and a
  graph index per node. Both append a self-loop per node to the edge list, count each node's out- and in-degree, and then
  three times over: scale the rows by the out-degree's inverse square root, sum over each node's in-neighbours, scale by
  the in-degree's inverse square root, and apply the dense step `max (a · W + b) 0`. Last they average the rows of each of
  the 64 graphs. The reference writes the dense step as a product of the whole array with `W`; the kernel program hands it to
  a kernel that works on ten blocks of 10000 rows, rounding both operands to a narrower float format on the way into the
  product. Every other operation of the two programs is the same operation on the same operands.

  At the extended reals a change of float format is the identity and a product into a zero accumulator is the plain sum of
  products, so on each block the kernel's dense step is the reference's restricted to the block's rows (`Layer`), the ten
  blocks tile the array (`Launch0` … `Launch2`), and the value each segment of the kernel program leaves is one of the
  reference's own stages of the arguments (`Boundaries`), the last being the reference's result. No law beyond reading
  both sums as the same sum is used, so the inputs' finiteness is never needed.

  The three frame claims are the generated frames (the reference's is its generated run with the result dropped); the
  idealization rewrote nothing, so there is nothing to preserve.
-/
import proofs.«145940_j79585743995605_1_alg».proof.Defs
import proofs.«145940_j79585743995605_1_alg».proof.Proof.Gen.Kernel
import proofs.«145940_j79585743995605_1_alg».proof.Proof.Gen.Kernel.Skeleton
import proofs.«145940_j79585743995605_1_alg».proof.Proof.Gen.Kernel.Launch
import proofs.«145940_j79585743995605_1_alg».proof.Proof.Gen.Kernel.Points
import proofs.«145940_j79585743995605_1_alg».proof.Proof.Gen.Kernel.Frame
import proofs.«145940_j79585743995605_1_alg».proof.Proof.Gen.KernelIdeal
import proofs.«145940_j79585743995605_1_alg».proof.Proof.Gen.KernelIdeal.Skeleton
import proofs.«145940_j79585743995605_1_alg».proof.Proof.Gen.KernelIdeal.Launch
import proofs.«145940_j79585743995605_1_alg».proof.Proof.Gen.KernelIdeal.Points
import proofs.«145940_j79585743995605_1_alg».proof.Proof.Gen.KernelIdeal.Frame
import proofs.«145940_j79585743995605_1_alg».proof.Proof.Gen.ReferenceIdeal
import proofs.«145940_j79585743995605_1_alg».proof.Proof.Gen.ReferenceIdeal.Run
import proofs.«145940_j79585743995605_1_alg».proof.Proof.Gen.ReferenceIdeal.Read
import proofs.«145940_j79585743995605_1_alg».proof.Proof.Gen.Pre_finite_inputs
import proofs.«145940_j79585743995605_1_alg».proof.Proof.KernelRun
import proofs.«145940_j79585743995605_1_alg».proof.Proof.Boundaries
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the ten arguments both programs end with the reference's last stage of those arguments in
    their result buffers: the kernel program by its run read through its segment boundaries, the reference by its run. -/
theorem algebraic : Cert.algebraic_KernelIdeal_ReferenceIdeal := by
  intro m ρ m' ρ' _ hagree
  refine ⟨fun c => Cert.ReferenceIdeal.Read.val_main_v81 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Boundaries.at7_v69 m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v81_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
